-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8192x1024 .f32) (main_arg1 : FVec F S1024x4096 .f32) (main_arg2 : FVec F S4096 .f32) (main_arg3 : FVec F S4096x1024 .f32) (main_arg4 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Kernel.lean ====
abbrev S8192x1024 : Shape := ⟨2, ![8192, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S1x4096 : Shape := ⟨2, ![1, 4096]⟩
abbrev S1x1024 : Shape := ⟨2, ![1, 1024]⟩
abbrev S512x1024 : Shape := ⟨2, ![512, 1024]⟩
abbrev S1024x1024 : Shape := ⟨2, ![1024, 1024]⟩

abbrev nBuf : Space → Nat
  | .hbm => 10
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S1024x4096, .bf16⟩
  | .hbm, ⟨6, _⟩ => ⟨S4096x1024, .bf16⟩
  | .hbm, ⟨7, _⟩ => ⟨S1x4096, .f32⟩
  | .hbm, ⟨8, _⟩ => ⟨S1x1024, .f32⟩
  | .hbm, ⟨9, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S1x4096, .f32⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S4096_S1x4096 : S4096.ShapeCasts S1x4096
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x4096_S1024x1024_0_0 : ∀ a, (![0, 0] : Fin 2 → Nat) a + S1024x1024.size a ≤ S1024x4096.size a
  h_S1024x1024 : 0 < S1024x1024.numel
  shapeCasts_S1024x1024_S1024x1024 : S1024x1024.ShapeCasts S1024x1024
  inb_S1x4096_S1x1024_0_0 : ∀ a, (![0, 0] : Fin 2 → Nat) a + S1x1024.size a ≤ S1x4096.size a
  h_S1x1024 : 0 < S1x1024.numel
  shapeCasts_S1x1024_S1x1024 : S1x1024.ShapeCasts S1x1024
  broadcasts_S1x1024_S512x1024 : S1x1024.Broadcasts S512x1024
  inb_S4096x1024_S1024x1024_0_0 : ∀ a, (![0, 0] : Fin 2 → Nat) a + S1024x1024.size a ≤ S4096x1024.size a
  inb_S1024x4096_S1024x1024_0_1024 : ∀ a, (![0, 1024] : Fin 2 → Nat) a + S1024x1024.size a ≤ S1024x4096.size a
  inb_S1x4096_S1x1024_0_1024 : ∀ a, (![0, 1024] : Fin 2 → Nat) a + S1x1024.size a ≤ S1x4096.size a
  inb_S4096x1024_S1024x1024_1024_0 : ∀ a, (![1024, 0] : Fin 2 → Nat) a + S1024x1024.size a ≤ S4096x1024.size a
  inb_S1024x4096_S1024x1024_0_2048 : ∀ a, (![0, 2048] : Fin 2 → Nat) a + S1024x1024.size a ≤ S1024x4096.size a
  inb_S1x4096_S1x1024_0_2048 : ∀ a, (![0, 2048] : Fin 2 → Nat) a + S1x1024.size a ≤ S1x4096.size a
  inb_S4096x1024_S1024x1024_2048_0 : ∀ a, (![2048, 0] : Fin 2 → Nat) a + S1024x1024.size a ≤ S4096x1024.size a
  inb_S1024x4096_S1024x1024_0_3072 : ∀ a, (![0, 3072] : Fin 2 → Nat) a + S1024x1024.size a ≤ S1024x4096.size a
  inb_S1x4096_S1x1024_0_3072 : ∀ a, (![0, 3072] : Fin 2 → Nat) a + S1x1024.size a ≤ S1x4096.size a
  inb_S4096x1024_S1024x1024_3072_0 : ∀ a, (![3072, 0] : Fin 2 → Nat) a + S1024x1024.size a ≤ S4096x1024.size a
  inb_S1x1024_S1x1024_0_0 : ∀ a, (![0, 0] : Fin 2 → Nat) a + S1x1024.size a ≤ S1x1024.size a
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .f32 = 32 ∨ (Rect.block (s := S8192x1024) S512x1024.size (cc0_transform_5 i) (hinb0_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S8192x4096 : Shape := ⟨2, ![8192, 4096]⟩
abbrev S1x4096 : Shape := ⟨2, ![1, 4096]⟩
abbrev S_ : Shape := ⟨0, ![]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x1024_S1024x4096_S8192x4096_1_0_0_1_n_n_wf : DotDims.WF S8192x1024 S1024x4096 S8192x4096 [1] [0] [0] [1] [] []
  dot_S8192x4096_S4096x1024_S8192x1024_1_0_0_1_n_n_wf : DotDims.WF S8192x4096 S4096x1024 S8192x1024 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf

class Facts : Prop extends Facts₀ where

variable [Facts]
-- ==== Proof.ChunkSum.lean ====
/-
  A sum over 4096 terms, taken in four consecutive runs of 1024 terms and folded left from zero,
  is the sum over all 4096 terms. Only commutativity and associativity of addition are used, so the
  law holds in any additive commutative monoid, the extended reals among them: no finiteness is needed.
-/
import Mathlib.Algebra.BigOperators.Fin
import Mathlib.Algebra.BigOperators.Group.Finset.Sigma
import Mathlib.Data.Fintype.BigOperators

namespace Cert.MlpSpec

open Finset

/-- Position `1024 * c + k` of the long axis, for run `c` and offset `k` inside the run. -/
def chunkIdx (c : Fin 4) (k : Fin 1024) : Fin 4096 := ⟨1024 * c.val + k.val, by omega⟩

theorem chunkIdx_val (c : Fin 4) (k : Fin 1024) : (chunkIdx c k).val = 1024 * c.val + k.val := rfl

/-- Every position of the long axis is in exactly one run, at exactly one offset. -/
def chunkEquiv : Fin 4 × Fin 1024 ≃ Fin 4096 where
  toFun p := chunkIdx p.1 p.2
  invFun f := (⟨f.val / 1024, by have := f.isLt; omega⟩, ⟨f.val % 1024, Nat.mod_lt _ (by decide)⟩)
  left_inv p := by
    rcases p with ⟨c, k⟩
    have hk := k.isLt
    apply Prod.ext
    · apply Fin.ext; show (1024 * c.val + k.val) / 1024 = c.val; omega
    · apply Fin.ext; show (1024 * c.val + k.val) % 1024 = k.val; omega
  right_inv f := by
    apply Fin.ext
    show 1024 * (f.val / 1024) + f.val % 1024 = f.val
    omega

/-- The four runs, added one after the other starting from zero, make the whole sum. -/
theorem sum_chunks {M : Type*} [AddCommMonoid M] (g : Fin 4096 → M) :
    (((0 + ∑ k : Fin 1024, g (chunkIdx 0 k)) + ∑ k : Fin 1024, g (chunkIdx 1 k))
        + ∑ k : Fin 1024, g (chunkIdx 2 k)) + ∑ k : Fin 1024, g (chunkIdx 3 k)
      = ∑ f : Fin 4096, g f := by
  rw [← Equiv.sum_comp chunkEquiv g, Fintype.sum_prod_type, Fin.sum_univ_four, zero_add]
  rfl

end Cert.MlpSpec
-- ==== Proof.Spec.lean ====
/-
  The function both programs compute, over the extended reals, index by index.

  With x : [8192, 1024], W1 : [1024, 4096], b1 : [4096], W2 : [4096, 1024], b2 : [1024]:
    hidden r f = (∑ d, x r d · W1 d f) + b1 f
    act h      = h · (1/2 + h · (1/2 − 1/8 · h))
    out r j    = (∑ f, act (hidden r f) · W2 f j) + b2 j.
  The two constants are kept as the float words both programs print (0x3F000000 is 1/2, 0x3E000000 is 1/8): the same
  word stands on both sides, so its value is never needed.
-/
import Idealize.ShloMosaic.PureOps.Ideal
import Idealize.ShloMosaic.Lib.ValueIdx
import proofs.«176387_j83184926589623_2_alg».proof.Proof.ChunkSum

noncomputable section

namespace Cert.MlpSpec

open Idealize.ShloMosaic Idealize.ShloMosaic.ValueIdx
open scoped BigOperators

/-- The word both programs print for 1/2. -/
abbrev half : EReal := Ideal.ofBits .f32 0x3F000000#32
/-- The word both programs print for 1/8. -/
abbrev eighth : EReal := Ideal.ofBits .f32 0x3E000000#32

/-- The activation, a cubic in Horner form: h · (1/2 + h · (1/2 − 1/8 · h)). -/
def act (h : EReal) : EReal := h * (half + h * (half - eighth * h))

/-- Entry (r, f) of the hidden layer before the activation: row r of x against column f of W1, plus b1 at f. -/
def hidden (x : (⟨2, ![8192, 1024]⟩ : Shape).Idx → EReal) (W1 : (⟨2, ![1024, 4096]⟩ : Shape).Idx → EReal)
    (b1 : (⟨1, ![4096]⟩ : Shape).Idx → EReal) (r : Fin 8192) (f : Fin 4096) : EReal :=
  (∑ d : Fin 1024, x (ix2 r d) * W1 (ix2 d f)) + b1 (ix1 f)

/-- Entry (r, j) of the result: the activated hidden row r against column j of W2, plus b2 at j. -/
def out (x : (⟨2, ![8192, 1024]⟩ : Shape).Idx → EReal) (W1 : (⟨2, ![1024, 4096]⟩ : Shape).Idx → EReal)
    (b1 : (⟨1, ![4096]⟩ : Shape).Idx → EReal) (W2 : (⟨2, ![4096, 1024]⟩ : Shape).Idx → EReal)
    (b2 : (⟨1, ![1024]⟩ : Shape).Idx → EReal) : (⟨2, ![8192, 1024]⟩ : Shape).Idx → EReal := fun i =>
  (∑ f : Fin 4096, act (hidden x W1 b1 (i 0) f) * W2 (ix2 f (i 1))) + b2 (ix1 (i 1))

/-- The same entry with the long sum taken in four runs of 1024, folded left from zero: the order in which a
    row tile accumulates it. Equal to `out` by the chunked-sum law. -/
theorem out_chunked (x : (⟨2, ![8192, 1024]⟩ : Shape).Idx → EReal) (W1 : (⟨2, ![1024, 4096]⟩ : Shape).Idx → EReal)
    (b1 : (⟨1, ![4096]⟩ : Shape).Idx → EReal) (W2 : (⟨2, ![4096, 1024]⟩ : Shape).Idx → EReal)
    (b2 : (⟨1, ![1024]⟩ : Shape).Idx → EReal) (r : Fin 8192) (j : Fin 1024) :
    ((((0 + ∑ k : Fin 1024, act (hidden x W1 b1 r (chunkIdx 0 k)) * W2 (ix2 (chunkIdx 0 k) j))
        + ∑ k : Fin 1024, act (hidden x W1 b1 r (chunkIdx 1 k)) * W2 (ix2 (chunkIdx 1 k) j))
        + ∑ k : Fin 1024, act (hidden x W1 b1 r (chunkIdx 2 k)) * W2 (ix2 (chunkIdx 2 k) j))
        + ∑ k : Fin 1024, act (hidden x W1 b1 r (chunkIdx 3 k)) * W2 (ix2 (chunkIdx 3 k) j))
      + b2 (ix1 j)
    = out x W1 b1 W2 b2 (ix2 r j) := by
  rw [sum_chunks (fun f => act (hidden x W1 b1 r f) * W2 (ix2 f j))]
  rfl

end Cert.MlpSpec

end
-- ==== Proof.RefIsSpec.lean ====
/-
  The reference computes the specification. Its result at (r, j) is the sum over all 4096 hidden columns f of
  act (hidden r f) · W2 (f, j), plus b2 at j, where hidden r f is row r of x against column f of W1 plus b1 at f:
  one matrix product, a broadcast row, the activation's five pointwise lines, a second matrix product, a broadcast row.
-/
import proofs.«176387_j83184926589623_2_alg».proof.Proof.Gen.ReferenceIdeal.Read
import proofs.«176387_j83184926589623_2_alg».proof.Proof.Spec

noncomputable section

open Idealize.ShloMosaic Idealize.ShloMosaic.ValueIdx
open scoped BigOperators

namespace Cert.ReferenceIdeal.RefValue

open Cert.ReferenceIdeal Cert.ReferenceIdeal.Read Cert.MlpSpec

/-! The operand indices of the two products and of the two broadcast rows, by coordinates. -/

theorem lhs_first (r : Fin 8192) (k : Fin 4096) (d : Fin 1024) : lidx_main_v0 (ix2 r k) d = ix2 r d :=
  funext fun a => match a with | ⟨0, _⟩ => rfl | ⟨1, _⟩ => rfl
theorem rhs_first (r : Fin 8192) (k : Fin 4096) (d : Fin 1024) : ridx_main_v0 (ix2 r k) d = ix2 d k :=
  funext fun a => match a with | ⟨0, _⟩ => rfl | ⟨1, _⟩ => rfl
theorem row_b1 (r : Fin 8192) (k : Fin 4096) : idx_main_v1 (idx_main_v2 (ix2 r k)) = ix1 k :=
  funext fun a => match a with | ⟨0, _⟩ => rfl
theorem lhs_second (r : Fin 8192) (j : Fin 1024) (k : Fin 4096) : lidx_main_v12 (ix2 r j) k = ix2 r k :=
  funext fun a => match a with | ⟨0, _⟩ => rfl | ⟨1, _⟩ => rfl
theorem rhs_second (r : Fin 8192) (j : Fin 1024) (k : Fin 4096) : ridx_main_v12 (ix2 r j) k = ix2 k j :=
  funext fun a => match a with | ⟨0, _⟩ => rfl | ⟨1, _⟩ => rfl
theorem row_b2 (r : Fin 8192) (j : Fin 1024) : idx_main_v13 (idx_main_v14 (ix2 r j)) = ix1 j :=
  funext fun a => match a with | ⟨0, _⟩ => rfl

/-- The reference's hidden layer before the activation is `hidden`. -/
theorem hidden_eq (x0 : (⟨S8192x1024, .f32⟩ : BufTy).Contents (Elt Ideal)) (x1 : (⟨S1024x4096, .f32⟩ : BufTy).Contents (Elt Ideal))
    (x2 : (⟨S4096, .f32⟩ : BufTy).Contents (Elt Ideal)) (r : Fin 8192) (k : Fin 4096) :
    val_main_v3 (F := Ideal) x0 x1 x2 (ix2 r k) = hidden x0 x1 x2 r k := by
  rw [val_main_v3_apply, val_main_v0_apply, val_main_v2_apply, val_main_v1_apply, row_b1]
  simp only [lhs_first, rhs_first]
  rfl

/-- The reference's activated hidden layer is `act` of `hidden`. -/
theorem activated_eq (x0 : (⟨S8192x1024, .f32⟩ : BufTy).Contents (Elt Ideal)) (x1 : (⟨S1024x4096, .f32⟩ : BufTy).Contents (Elt Ideal))
    (x2 : (⟨S4096, .f32⟩ : BufTy).Contents (Elt Ideal)) (r : Fin 8192) (k : Fin 4096) :
    val_main_v11 (F := Ideal) x0 x1 x2 (ix2 r k) = act (hidden x0 x1 x2 r k) := by
  rw [val_main_v11_apply, val_main_v10_apply, val_main_v9_apply, val_main_cst_1_apply, val_main_v8_apply, val_main_v7_apply,
    val_main_v6_apply, val_main_cst_0_apply, val_main_v5_apply, val_main_v4_apply, val_main_cst_apply, hidden_eq]
  rfl

/-- The reference's result, as a whole array, is the specification of its five arguments. -/
theorem result_eq_out (x0 : (⟨S8192x1024, .f32⟩ : BufTy).Contents (Elt Ideal)) (x1 : (⟨S1024x4096, .f32⟩ : BufTy).Contents (Elt Ideal))
    (x2 : (⟨S4096, .f32⟩ : BufTy).Contents (Elt Ideal)) (x3 : (⟨S4096x1024, .f32⟩ : BufTy).Contents (Elt Ideal))
    (x4 : (⟨S1024, .f32⟩ : BufTy).Contents (Elt Ideal)) :
    val_main_v15 (F := Ideal) x0 x1 x2 x3 x4 = out x0 x1 x2 x3 x4 := by
  funext i
  obtain ⟨r, j, rfl⟩ : ∃ (r : Fin 8192) (j : Fin 1024), i = ix2 r j := ⟨i 0, i 1, eq_ix2 i⟩
  rw [val_main_v15_apply, val_main_v12_apply, val_main_v14_apply, val_main_v13_apply, row_b2]
  simp only [lhs_second, rhs_second, activated_eq]
  rfl

end Cert.ReferenceIdeal.RefValue

end
-- ==== Proof.Arrays.lean ====
/-
  What a row tile is handed, in terms of the five arguments, over the extended reals.

  Before the tiles run, W1 and W2 are changed to a narrower float format (the identity on extended reals) and b1, b2 are
  given a leading axis of length one. Tile t (of 16) is handed rows [512t, 512t + 512) of x and, whole, W1, b1, W2, b2;
  it writes rows [512t, 512t + 512) of the result. So each block it reads, at a block index, is an argument at the
  matching array index.
-/
import proofs.«176387_j83184926589623_2_alg».proof.Proof.Gen.KernelIdeal.Value
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx

namespace Cert.KernelIdeal.MlpArrays

open Cert.KernelIdeal Cert.KernelIdeal.Gen

variable (m : (ℓ : Loc nD τ sig) → Buf (Elt Ideal) ℓ)

/-! ## The arrays as the tiles find them -/

/-- W1 in the narrower format is W1. -/
theorem arr_W1 (c : Dev nD) : (V m c main_v0 : S1024x4096.Idx → EReal) = m ((c : Thread nD τ).loc main_arg1) := by
  dsimp only [V, hostOps0]
  after_results
  rfl

/-- W2 in the narrower format is W2. -/
theorem arr_W2 (c : Dev nD) : (V m c main_v1 : S4096x1024.Idx → EReal) = m ((c : Thread nD τ).loc main_arg3) := by
  dsimp only [V, hostOps0]
  after_results
  rfl

/-- b1 with a leading unit axis. -/
theorem arr_b1 (c : Dev nD) : (V m c main_v2 : S1x4096.Idx → EReal)
    = shapeCast S1x4096 (m ((c : Thread nD τ).loc main_arg2)) shapeCasts_S4096_S1x4096 := by
  dsimp only [V, hostOps0]
  after_results
  rfl

/-- b2 with a leading unit axis. -/
theorem arr_b2 (c : Dev nD) : (V m c main_v3 : S1x1024.Idx → EReal)
    = shapeCast S1x1024 (m ((c : Thread nD τ).loc main_arg4)) shapeCasts_S1024_S1x1024 := by
  dsimp only [V, hostOps0]
  after_results
  rfl

/-! ## Which block each tile takes -/

/-- Tile t takes block (t, 0) of x and of the result, and block (0, 0), the whole array, of the other four. -/
theorem blockIndex : ∀ t : Fin cfg0.N, win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## The blocks read at an index -/

/-- Tile t's block of x at (p, d) is x at (512t + p, d). -/
theorem blk_x (c : Dev nD) (t : Fin cfg0.N) (p : Fin 512) (d : Fin 1024) (r : Fin 8192) (hr : r.val = 512 * t.val + p.val) :
    iblk m c 0 t (ix2 p d) = m ((c : Thread nD τ).loc main_arg0) (ix2 r d) := by
  obtain ⟨e0, e1, -⟩ := blockIndex t
  show V m c main_arg0 (((cfg0.win 0).blk t).view.emb (ix2 p d)) = _
  rw [V_main_arg0]
  refine congrArg (m ((c : Thread nD τ).loc main_arg0)) (funext fun a => Fin.ext ?_)
  match a with
  | ⟨0, _⟩ => show win0_0.index t (0 : Fin 2) * 512 + 1 * p.val = r.val; rw [e0, hr]; omega
  | ⟨1, _⟩ => show win0_0.index t (1 : Fin 2) * 1024 + 1 * d.val = d.val; rw [e1]; omega

/-- Every tile's block of W1 at (d, f) is W1 at (d, f). -/
theorem blk_W1 (c : Dev nD) (t : Fin cfg0.N) (d : Fin 1024) (f : Fin 4096) :
    iblk m c 1 t (ix2 d f) = m ((c : Thread nD τ).loc main_arg1) (ix2 d f) := by
  obtain ⟨-, -, -, -, e0, e1, -⟩ := blockIndex t
  show V m c main_v0 (((cfg0.win 1).blk t).view.emb (ix2 d f)) = _
  rw [arr_W1]
  refine congrArg (m ((c : Thread nD τ).loc main_arg1)) (funext fun a => Fin.ext ?_)
  match a with
  | ⟨0, _⟩ => show win0_1.index t (0 : Fin 2) * 1024 + 1 * d.val = d.val; rw [e0]; omega
  | ⟨1, _⟩ => show win0_1.index t (1 : Fin 2) * 4096 + 1 * f.val = f.val; rw [e1]; omega

/-- Every tile's block of b1 at (0, f) is b1 at f. -/
theorem blk_b1 (c : Dev nD) (t : Fin cfg0.N) (u : Fin 1) (f : Fin 4096) :
    iblk m c 2 t (ix2 u f) = m ((c : Thread nD τ).loc main_arg2) (ix1 f) := by
  obtain ⟨-, -, -, -, -, -, e0, e1, -⟩ := blockIndex t
  show V m c main_v2 (((cfg0.win 2).blk t).view.emb (ix2 u f)) = _
  rw [arr_b1]
  have hi : ((cfg0.win 2).blk t).view.emb (ix2 u f) = ix2 (0 : Fin 1) f := funext fun a => Fin.ext (by
    match a with
    | ⟨0, _⟩ => show win0_2.index t (0 : Fin 2) * 1 + 1 * u.val = 0; rw [e0]; omega
    | ⟨1, _⟩ => show win0_2.index t (1 : Fin 2) * 4096 + 1 * f.val = f.val; rw [e1]; omega)
  rw [hi]
  exact shapeCast_a_1a_apply _ _ 0 f

/-- Every tile's block of W2 at (f, j) is W2 at (f, j). -/
theorem blk_W2 (c : Dev nD) (t : Fin cfg0.N) (f : Fin 4096) (j : Fin 1024) :
    iblk m c 3 t (ix2 f j) = m ((c : Thread nD τ).loc main_arg3) (ix2 f j) := by
  obtain ⟨-, -, -, -, -, -, -, -, e0, e1, -⟩ := blockIndex t
  show V m c main_v1 (((cfg0.win 3).blk t).view.emb (ix2 f j)) = _
  rw [arr_W2]
  refine congrArg (m ((c : Thread nD τ).loc main_arg3)) (funext fun a => Fin.ext ?_)
  match a with
  | ⟨0, _⟩ => show win0_3.index t (0 : Fin 2) * 4096 + 1 * f.val = f.val; rw [e0]; omega
  | ⟨1, _⟩ => show win0_3.index t (1 : Fin 2) * 1024 + 1 * j.val = j.val; rw [e1]; omega

/-- Every tile's block of b2 at (0, j) is b2 at j. -/
theorem blk_b2 (c : Dev nD) (t : Fin cfg0.N) (u : Fin 1) (j : Fin 1024) :
    iblk m c 4 t (ix2 u j) = m ((c : Thread nD τ).loc main_arg4) (ix1 j) := by
  obtain ⟨-, -, -, -, -, -, -, -, -, -, e0, e1⟩ := blockIndex t
  show V m c main_v3 (((cfg0.win 4).blk t).view.emb (ix2 u j)) = _
  rw [arr_b2]
  have hi : ((cfg0.win 4).blk t).view.emb (ix2 u j) = ix2 (0 : Fin 1) j := funext fun a => Fin.ext (by
    match a with
    | ⟨0, _⟩ => show win0_4.index t (0 : Fin 2) * 1 + 1 * u.val = 0; rw [e0]; omega
    | ⟨1, _⟩ => show win0_4.index t (1 : Fin 2) * 1024 + 1 * j.val = j.val; rw [e1]; omega)
  rw [hi]
  exact shapeCast_a_1a_apply _ _ 0 j

/-- Entry (p, q) of tile t's result block sits at (512t + p, q) of the result array. -/
theorem out_emb (t : Fin cfg0.N) (p : Fin 512) (q : Fin 1024) (r : Fin 8192) (hr : r.val = 512 * t.val + p.val) :
    ((cfg0.win 5).blk t).view.emb (ix2 p q) = ix2 r q := by
  obtain ⟨-, -, e0, e1, -⟩ := blockIndex t
  refine funext fun a => Fin.ext ?_
  match a with
  | ⟨0, _⟩ => show win0_5.index t (0 : Fin 2) * 512 + 1 * p.val = r.val; rw [e0, hr]; omega
  | ⟨1, _⟩ => show win0_5.index t (1 : Fin 2) * 1024 + 1 * q.val = q.val; rw [e1]; omega

end Cert.KernelIdeal.MlpArrays

end
-- ==== Proof.LibReadBack.lean ====
/-
  A general fact about a buffer that is stored whole several times and then loaded whole: the load reads the payload of
  the LAST store, whatever the earlier stores held. (An accumulator that is overwritten by each step of a fold and read
  back by the next is of this form.)
-/
import Idealize.ShloMosaic.Lib.Pipeline.Value

noncomputable section

namespace Cert.LibReadBack

open Idealize.ShloMosaic

/-- A load through the whole-shape rectangle at zero offsets, after a list of stores whose LAST one (the head of the
    list) went through that same rectangle, reads that store's payload: the earlier stores are all overwritten. -/
theorem readCov_cons_unit_zero {Val : EltTy → Type} [∀ e, Nonempty (Val e)] {S : Shape} {e : EltTy}
    {sig : RefSig} {κ : Kind} {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

end Cert.LibReadBack

end
-- ==== Proof.BodyTerm.lean ====
/-
  What one row tile computes, as ONE term over the five blocks it is handed: the 512 rows of x, all of W1, b1, W2, b2.

  The accumulator starts at zero and takes four steps, one per run of 1024 hidden columns; step c multiplies the rows of
  x by columns [1024c, 1024c + 1024) of W1, adds that run of b1, applies the activation, multiplies by rows
  [1024c, 1024c + 1024) of W2 and adds the product to the accumulator. The tile's result is the accumulator plus b2.
  Each step reads the accumulator the step before stored; a whole store followed by a whole load reads the stored value
  back, so the four steps nest into one term.
-/
import proofs.«176387_j83184926589623_2_alg».proof.Proof.Gen.KernelIdeal.Frame
import proofs.«176387_j83184926589623_2_alg».proof.Proof.LibReadBack
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.MlpBody

open Cert.KernelIdeal Cert.KernelIdeal.Gen

variable {F : FTy → Type} [FloatOps F]

theorem hz : (![0, 0] : Fin 2 → Nat) = fun _ => 0 := funext fun a => by fin_cases a <;> rfl

/-- Columns [o, o + 1024) of the W1 block. -/
abbrev colsW1 (x1 : Vec F S1024x4096 .bf16) (o : Nat) (inb : ∀ a, (![0, o] : Fin 2 → Nat) a + S1024x1024.size a ≤ S1024x4096.size a) :
    Vec F S1024x1024 .bf16 := View.ld x1 (Rect.unit (s := S1024x4096) ![0, o] S1024x1024.size inb)
/-- Entries [o, o + 1024) of the b1 row. -/
abbrev colsB1 (x2 : Vec F S1x4096 .f32) (o : Nat) (inb : ∀ a, (![0, o] : Fin 2 → Nat) a + S1x1024.size a ≤ S1x4096.size a) :
    Vec F S1x1024 .f32 := View.ld x2 (Rect.unit (s := S1x4096) ![0, o] S1x1024.size inb)
/-- Rows [o, o + 1024) of the W2 block. -/
abbrev rowsW2 (x3 : Vec F S4096x1024 .bf16) (o : Nat) (inb : ∀ a, (![o, 0] : Fin 2 → Nat) a + S1024x1024.size a ≤ S4096x1024.size a) :
    Vec F S1024x1024 .bf16 := View.ld x3 (Rect.unit (s := S4096x1024) ![o, 0] S1024x1024.size inb)

/-- The accumulator after the first step, from zero. -/
def acc0 (x0 : Vec F S512x1024 .f32) (x1 : Vec F S1024x4096 .bf16) (x2 : Vec F S1x4096 .f32) (x3 : Vec F S4096x1024 .bf16) :
    FVec F S512x1024 .f32 :=
  k0_pay4 x0 (colsW1 x1 0 inb_S1024x4096_S1024x1024_0_0) (colsB1 x2 0 inb_S1x4096_S1x1024_0_0)
    (rowsW2 x3 0 inb_S4096x1024_S1024x1024_0_0) k0_pay3

/-- After the second step. -/
def acc1 (x0 : Vec F S512x1024 .f32) (x1 : Vec F S1024x4096 .bf16) (x2 : Vec F S1x4096 .f32) (x3 : Vec F S4096x1024 .bf16) :
    FVec F S512x1024 .f32 :=
  k0_pay6 (k0_pay2 x0) (k0_pay5 (colsW1 x1 1024 inb_S1024x4096_S1024x1024_0_1024)) (colsB1 x2 1024 inb_S1x4096_S1x1024_0_1024)
    (rowsW2 x3 1024 inb_S4096x1024_S1024x1024_1024_0) (acc0 x0 x1 x2 x3)

/-- After the third step. -/
def acc2 (x0 : Vec F S512x1024 .f32) (x1 : Vec F S1024x4096 .bf16) (x2 : Vec F S1x4096 .f32) (x3 : Vec F S4096x1024 .bf16) :
    FVec F S512x1024 .f32 :=
  k0_pay8 (k0_pay7 (k0_pay2 x0) (colsW1 x1 2048 inb_S1024x4096_S1024x1024_0_2048) (colsB1 x2 2048 inb_S1x4096_S1x1024_0_2048))
    (rowsW2 x3 2048 inb_S4096x1024_S1024x1024_2048_0) (acc1 x0 x1 x2 x3)

/-- After the fourth and last step. -/
def acc3 (x0 : Vec F S512x1024 .f32) (x1 : Vec F S1024x4096 .bf16) (x2 : Vec F S1x4096 .f32) (x3 : Vec F S4096x1024 .bf16) :
    FVec F S512x1024 .f32 :=
  k0_pay9 (k0_pay2 x0) (colsW1 x1 3072 inb_S1024x4096_S1024x1024_0_3072) (colsB1 x2 3072 inb_S1x4096_S1x1024_0_3072)
    (rowsW2 x3 3072 inb_S4096x1024_S1024x1024_3072_0) (acc2 x0 x1 x2 x3)

/-- The tile's result: the last accumulator plus b2. -/
def tile (x0 : Vec F S512x1024 .f32) (x1 : Vec F S1024x4096 .bf16) (x2 : Vec F S1x4096 .f32) (x3 : Vec F S4096x1024 .bf16)
    (x4 : Vec F S1x1024 .f32) : FVec F S512x1024 .f32 :=
  k0_pay1 (acc3 x0 x1 x2 x3) (k0_pay10 x4)

/-- What the body leaves in the output's staging buffer is the tile's result of the five blocks: its one store covers the
    buffer, every load of an input reads the block, and every load of the accumulator reads the step before. -/
theorem out_eq_tile (c : Dev nD) (i : grid0.Coords) (arg1 : Memref sig .tc .vmem S512x1024 .f32) (harg1 : arg1.IsWhole)
    (arg2 : Memref sig .tc .vmem S1024x4096 .bf16) (harg2 : arg2.IsWhole) (arg3 : Memref sig .tc .vmem S1x4096 .f32) (harg3 : arg3.IsWhole)
    (arg4 : Memref sig .tc .vmem S4096x1024 .bf16) (harg4 : arg4.IsWhole) (arg5 : Memref sig .tc .vmem S1x1024 .f32) (harg5 : arg5.IsWhole)
    (arg6 : Memref sig .tc .vmem S512x1024 .f32) (harg6 : arg6.IsWhole) (arg7 : Memref sig .tc .vmem S512x1024 .f32) (harg7 : arg7.IsWhole)
    (x0 : Vec F S512x1024 .f32) (x1 : Vec F S1024x4096 .bf16) (x2 : Vec F S1x4096 .f32) (x3 : Vec F S4096x1024 .bf16) (x4 : Vec F S1x1024 .f32) :
    out0_A_5 c i arg1 harg1 arg2 harg2 arg3 harg3 arg4 harg4 arg5 harg5 arg6 harg6 arg7 harg7 x0 x1 x2 x3 x4 = tile x0 x1 x2 x3 x4 := by
  unfold out0_A_5
  rw [View.read_writes_eq_canon _ _ _ (cover0_A_5 c i arg1 harg1 arg2 harg2 arg3 harg3 arg4 harg4 arg5 harg5 arg6 harg6 arg7 harg7 x0 x1 x2 x3 x4)]
  unfold kernelRun0_A
  dsimp only
  sl_unfold_words
  rw [View.canon_unit_zero hz]
  simp only [Cert.LibReadBack.readCov_cons_unit_zero (S := S512x1024) _ hz, View.readCov_unit_zero (S := S512x1024) _ hz,
    View.readAt_eq_ld, harg1.read_unread, harg2.read_unread, harg3.read_unread, harg4.read_unread, harg5.read_unread,
    View.ld_unit_zero (S := S512x1024) hz, View.ld_unit_zero (S := S1x1024) hz]
  rfl

end Cert.KernelIdeal.MlpBody

end
-- ==== Proof.TileMatmul.lean ====
/-
  The kernel's block product read at one entry. A [512, 1024] block times a [1024, 1024] block, accumulated into zero, is
  at entry (p, q) the sum over k of left (p, k) · right (k, q): over the extended reals the accumulator's zero adds
  nothing and the contraction index is its one coordinate.
-/
import proofs.«176387_j83184926589623_2_alg».proof.Proof.Gen.KernelIdeal
import Idealize.ShloMosaic.Lib.ValueIdx
import Idealize.ShloMosaic.PureOps.Ideal.Laws

noncomputable section

open Idealize.ShloMosaic Idealize.ShloMosaic.ValueIdx
open scoped BigOperators

namespace Cert.KernelIdeal.MlpBody

open Cert.KernelIdeal Cert.KernelIdeal.Gen

/-- The block product's dimension record: contract the left operand's axis 1 with the right operand's axis 0. -/
abbrev blockDot : DotDims S512x1024 S1024x1024 S512x1024 := dot_S512x1024_S1024x1024_S512x1024_1_0_0_1_n_n

theorem blockDot_lhs0 (i : S512x1024.Idx) (κ : blockDot.contr.Idx) : (blockDot.lhsIdx i κ 0).val = (i 0).val := by
  unfold DotDims.lhsIdx
  rw [dif_neg (show ¬(0 : Fin S512x1024.rank) ∈ blockDot.lhsBatch by decide),
    dif_pos (show (0 : Fin S512x1024.rank) ∈ blockDot.lhsNonContracting by decide)]
  rfl

theorem blockDot_lhs1 (i : S512x1024.Idx) (κ : blockDot.contr.Idx) : (blockDot.lhsIdx i κ 1).val = (κ ⟨0, by decide⟩).val :=
  blockDot.lhsIdx_val_of_single rfl i κ

theorem blockDot_rhs0 (i : S512x1024.Idx) (κ : blockDot.contr.Idx) : (blockDot.rhsIdx i κ 0).val = (κ ⟨0, by decide⟩).val :=
  blockDot.rhsIdx_val_of_single rfl i κ

theorem blockDot_rhs1 (i : S512x1024.Idx) (κ : blockDot.contr.Idx) : (blockDot.rhsIdx i κ 1).val = (i 1).val := by
  unfold DotDims.rhsIdx
  rw [dif_neg (show ¬(1 : Fin S1024x1024.rank) ∈ blockDot.rhsBatch by decide),
    dif_pos (show (1 : Fin S1024x1024.rank) ∈ blockDot.rhsNonContracting by decide)]
  rfl

/-- Entry (p, q) of the block product into a zero accumulator: ∑ₖ left (p, k) · right (k, q). -/
theorem blockProduct_apply {φ₁ φ₂ : FTy} (l : FVec Ideal S512x1024 φ₁) (r : FVec Ideal S1024x1024 φ₂) (p : Fin 512) (q : Fin 1024) :
    matmul blockDot none l r (constant (F := Ideal) S512x1024 .f32 0x00000000#32) (ix2 p q)
      = ∑ k : Fin 1024, l (ix2 p k) * r (ix2 k q) := by
  simp only [matmul]
  rw [Ideal.matmul_constant_zero_apply, ← Equiv.sum_comp (contrEquiv1 blockDot 1024 rfl rfl).symm]
  refine Finset.sum_congr rfl fun k _ => ?_
  have hk := contrEquiv1_symm_val blockDot 1024 rfl rfl k
  have el : blockDot.lhsIdx (ix2 p q) ((contrEquiv1 blockDot 1024 rfl rfl).symm k) = ix2 p k := funext fun a => Fin.ext (by
    match a with
    | ⟨0, _⟩ => exact blockDot_lhs0 _ _
    | ⟨1, _⟩ => exact (blockDot_lhs1 _ _).trans hk)
  have er : blockDot.rhsIdx (ix2 p q) ((contrEquiv1 blockDot 1024 rfl rfl).symm k) = ix2 k q := funext fun a => Fin.ext (by
    match a with
    | ⟨0, _⟩ => exact (blockDot_rhs0 _ _).trans hk
    | ⟨1, _⟩ => exact blockDot_rhs1 _ _)
  rw [el, er]

end Cert.KernelIdeal.MlpBody

end
-- ==== Proof.TileSteps.lean ====
/-
  Each step of a row tile's accumulation, read at one entry over the extended reals.

  With xb the tile's 512 rows of x, w1 a run of 1024 columns of W1, b that run of b1 and w2 the matching 1024 rows of W2:
    pre xb w1 b p k = (∑ d, xb (p, d) · w1 (d, k)) + b (0, k)          the hidden entry before the activation
    a step adds to the accumulator, at (p, q),  ∑ₖ act (pre xb w1 b p k) · w2 (k, q).
  A change of float format is the identity here and a cast between equal shapes changes nothing, so each printed step is
  exactly this; the zero fill reads 0 and the last line adds b2's one row.
-/
import proofs.«176387_j83184926589623_2_alg».proof.Proof.Gen.KernelIdeal.Skeleton
import proofs.«176387_j83184926589623_2_alg».proof.Proof.TileMatmul
import proofs.«176387_j83184926589623_2_alg».proof.Proof.Spec
import Idealize.ShloMosaic.Lib.Pipeline.Value
import Idealize.ShloMosaic.Lib.ValueLayout

noncomputable section

open Idealize.ShloMosaic Idealize.ShloMosaic.ValueIdx
open scoped BigOperators

namespace Cert.KernelIdeal.MlpBody

open Cert.KernelIdeal Cert.KernelIdeal.Gen Cert.MlpSpec

/-- A scalar literal over the extended reals is the value its word denotes. -/
theorem scalar_ofBits {φ : FTy} (b : BitVec φ.bits) : Scalar.ofBits (F := Ideal) φ b = Ideal.ofBits φ b := rfl

/-- The hidden entry (p, k) of one step before the activation: row p of the tile against column k of the run of W1,
    plus the run of b1 at k. -/
def pre (xb : S512x1024.Idx → EReal) (w1 : S1024x1024.Idx → EReal) (b : S1x1024.Idx → EReal) (p : Fin 512) (k : Fin 1024) : EReal :=
  (∑ d : Fin 1024, xb (ix2 p d) * w1 (ix2 d k)) + b (ix2 (0 : Fin 1) k)

/-- The zero fill reads zero. -/
theorem zeroFill_apply (p : Fin 512) (q : Fin 1024) : k0_pay3 (F := Ideal) (ix2 p q) = 0 := by
  unfold k0_pay3
  simp only [shapeCast_self, broadcast_apply, scalar_ofBits, Ideal.ofBits_zero_f32]

/-- The rows of x rounded for the matrix unit are, over the extended reals, the rows of x. -/
theorem rowsRounded_apply (x0 : Vec Ideal S512x1024 .f32) (i : S512x1024.Idx) : k0_pay2 (F := Ideal) x0 i = x0 i := rfl

/-- A cast of a run of W1 to its own shape is that run. -/
theorem runCast_apply (w : Vec Ideal S1024x1024 .bf16) (i : S1024x1024.Idx) : k0_pay5 (F := Ideal) w i = w i := by
  unfold k0_pay5
  rw [shapeCast_self]

/-- A cast of b2's row to its own shape is that row. -/
theorem biasCast_apply (x4 : Vec Ideal S1x1024 .f32) (i : S1x1024.Idx) : k0_pay10 (F := Ideal) x4 i = x4 i := by
  unfold k0_pay10
  rw [shapeCast_self]

/-- The activated hidden block of the third step, at (p, k). -/
theorem hidden_apply (xb : FVec Ideal S512x1024 .bf16) (w1 : Vec Ideal S1024x1024 .bf16) (b : Vec Ideal S1x1024 .f32)
    (p : Fin 512) (k : Fin 1024) : k0_pay7 (F := Ideal) xb w1 b (ix2 p k) = act (pre xb w1 b p k) := by
  unfold k0_pay7
  simp only [shapeCast_self, truncf_apply, mulf_apply, addf_apply, subf_apply, broadcast_apply, scalar_ofBits,
    blockProduct_apply, broadcastTo_1b_ab_apply]
  rfl

/-- The third step's accumulation: the accumulator plus the activated hidden block against the run of W2. -/
theorem accumulate_apply (hb : FVec Ideal S512x1024 .bf16) (w2 : Vec Ideal S1024x1024 .bf16) (acc : Vec Ideal S512x1024 .f32)
    (p : Fin 512) (q : Fin 1024) :
    k0_pay8 (F := Ideal) hb w2 acc (ix2 p q) = acc (ix2 p q) + ∑ k : Fin 1024, hb (ix2 p k) * w2 (ix2 k q) := by
  unfold k0_pay8
  simp only [shapeCast_self, addf_apply, blockProduct_apply]

/-- The first step, whole: from the rows of x as stored. -/
theorem step0_apply (x0 : Vec Ideal S512x1024 .f32) (w1 : Vec Ideal S1024x1024 .bf16) (b : Vec Ideal S1x1024 .f32)
    (w2 : Vec Ideal S1024x1024 .bf16) (acc : Vec Ideal S512x1024 .f32) (p : Fin 512) (q : Fin 1024) :
    k0_pay4 (F := Ideal) x0 w1 b w2 acc (ix2 p q)
      = acc (ix2 p q) + ∑ k : Fin 1024, act (pre x0 w1 b p k) * w2 (ix2 k q) := by
  unfold k0_pay4 k0_pay2
  simp only [shapeCast_self, truncf_apply, mulf_apply, addf_apply, subf_apply, broadcast_apply, scalar_ofBits,
    blockProduct_apply, broadcastTo_1b_ab_apply]
  rfl

/-- The second step, whole: its run of W1 arrives already cast. -/
theorem step1_apply (xb : FVec Ideal S512x1024 .bf16) (w1 : FVec Ideal S1024x1024 .bf16) (b : Vec Ideal S1x1024 .f32)
    (w2 : Vec Ideal S1024x1024 .bf16) (acc : Vec Ideal S512x1024 .f32) (p : Fin 512) (q : Fin 1024) :
    k0_pay6 (F := Ideal) xb w1 b w2 acc (ix2 p q)
      = acc (ix2 p q) + ∑ k : Fin 1024, act (pre xb w1 b p k) * w2 (ix2 k q) := by
  unfold k0_pay6
  simp only [shapeCast_self, truncf_apply, mulf_apply, addf_apply, subf_apply, broadcast_apply, scalar_ofBits,
    blockProduct_apply, broadcastTo_1b_ab_apply]
  rfl

/-- The fourth step, whole. -/
theorem step3_apply (xb : FVec Ideal S512x1024 .bf16) (w1 : Vec Ideal S1024x1024 .bf16) (b : Vec Ideal S1x1024 .f32)
    (w2 : Vec Ideal S1024x1024 .bf16) (acc : Vec Ideal S512x1024 .f32) (p : Fin 512) (q : Fin 1024) :
    k0_pay9 (F := Ideal) xb w1 b w2 acc (ix2 p q)
      = acc (ix2 p q) + ∑ k : Fin 1024, act (pre xb w1 b p k) * w2 (ix2 k q) := by
  unfold k0_pay9
  simp only [shapeCast_self, truncf_apply, mulf_apply, addf_apply, subf_apply, broadcast_apply, scalar_ofBits,
    blockProduct_apply, broadcastTo_1b_ab_apply]
  rfl

/-- The last line: the accumulator plus b2's one row. -/
theorem addBias_apply (acc : Vec Ideal S512x1024 .f32) (bb : FVec Ideal S1x1024 .f32) (p : Fin 512) (q : Fin 1024) :
    k0_pay1 (F := Ideal) acc bb (ix2 p q) = acc (ix2 p q) + bb (ix2 (0 : Fin 1) q) := by
  unfold k0_pay1
  simp only [addf_apply, broadcastTo_1b_ab_apply]

end Cert.KernelIdeal.MlpBody

end
-- ==== Proof.TileValue.lean ====
/-
  A row tile's result at one entry, over the extended reals, in terms of the five blocks it is handed.

  Run c of the hidden axis is columns [1024c, 1024c + 1024) of W1 and of b1 and rows [1024c, 1024c + 1024) of W2; its
  contribution to entry (p, q) is  ∑ₖ act ((∑ d, x (p, d) · W1 (d, 1024c + k)) + b1 (1024c + k)) · W2 (1024c + k, q).
  The tile's entry is the four contributions added one after the other starting from zero, plus b2 at q.
-/
import proofs.«176387_j83184926589623_2_alg».proof.Proof.BodyTerm
import proofs.«176387_j83184926589623_2_alg».proof.Proof.TileSteps

noncomputable section

open Idealize.ShloMosaic Idealize.ShloMosaic.ValueIdx
open scoped BigOperators

namespace Cert.KernelIdeal.MlpBody

open Cert.KernelIdeal Cert.KernelIdeal.Gen Cert.MlpSpec

/-- Columns [1024c, 1024c + 1024) of the W1 block, read at (d, k): the block at (d, 1024c + k). -/
theorem colsW1_apply (x1 : Vec Ideal S1024x4096 .bf16) (o : Nat) (c : Fin 4) (ho : o = 1024 * c.val)
    (inb : ∀ a, (![0, o] : Fin 2 → Nat) a + S1024x1024.size a ≤ S1024x4096.size a) (d k : Fin 1024) :
    colsW1 x1 o inb (ix2 d k) = x1 (ix2 d (chunkIdx c k)) := by
  subst ho
  show x1 _ = x1 _
  refine congrArg x1 (funext fun a => Fin.ext ?_)
  match a with
  | ⟨0, _⟩ => show 0 + 1 * d.val = d.val; omega
  | ⟨1, _⟩ => show 1024 * c.val + 1 * k.val = 1024 * c.val + k.val; omega

/-- Entries [1024c, 1024c + 1024) of the b1 row, read at (0, k): the row at 1024c + k. -/
theorem colsB1_apply (x2 : Vec Ideal S1x4096 .f32) (o : Nat) (c : Fin 4) (ho : o = 1024 * c.val)
    (inb : ∀ a, (![0, o] : Fin 2 → Nat) a + S1x1024.size a ≤ S1x4096.size a) (u : Fin 1) (k : Fin 1024) :
    colsB1 x2 o inb (ix2 u k) = x2 (ix2 (0 : Fin 1) (chunkIdx c k)) := by
  subst ho
  show x2 _ = x2 _
  refine congrArg x2 (funext fun a => Fin.ext ?_)
  match a with
  | ⟨0, _⟩ => show 0 + 1 * u.val = 0; omega
  | ⟨1, _⟩ => show 1024 * c.val + 1 * k.val = 1024 * c.val + k.val; omega

/-- Rows [1024c, 1024c + 1024) of the W2 block, read at (k, q): the block at (1024c + k, q). -/
theorem rowsW2_apply (x3 : Vec Ideal S4096x1024 .bf16) (o : Nat) (c : Fin 4) (ho : o = 1024 * c.val)
    (inb : ∀ a, (![o, 0] : Fin 2 → Nat) a + S1024x1024.size a ≤ S4096x1024.size a) (k q : Fin 1024) :
    rowsW2 x3 o inb (ix2 k q) = x3 (ix2 (chunkIdx c k) q) := by
  subst ho
  show x3 _ = x3 _
  refine congrArg x3 (funext fun a => Fin.ext ?_)
  match a with
  | ⟨0, _⟩ => show 1024 * c.val + 1 * k.val = 1024 * c.val + k.val; omega
  | ⟨1, _⟩ => show 0 + 1 * q.val = q.val; omega

/-- Over the extended reals the rounded rows of x are the rows of x, as blocks. -/
theorem rowsRounded (x0 : Vec Ideal S512x1024 .f32) : k0_pay2 (F := Ideal) x0 = x0 := rfl

/-- A run of W1 cast to its own shape is that run, as blocks. -/
theorem runCast (w : Vec Ideal S1024x1024 .bf16) : k0_pay5 (F := Ideal) w = w := by
  unfold k0_pay5
  rw [shapeCast_self]

/-- Run c's contribution to entry (p, q) of a tile whose rows of x are x0. -/
def runSum (x0 : S512x1024.Idx → EReal) (x1 : S1024x4096.Idx → EReal) (x2 : S1x4096.Idx → EReal) (x3 : S4096x1024.Idx → EReal)
    (c : Fin 4) (p : Fin 512) (q : Fin 1024) : EReal :=
  ∑ k : Fin 1024, act ((∑ d : Fin 1024, x0 (ix2 p d) * x1 (ix2 d (chunkIdx c k))) + x2 (ix2 (0 : Fin 1) (chunkIdx c k)))
    * x3 (ix2 (chunkIdx c k) q)

/-- One step's sum, over the run's three loaded blocks, is the run's contribution. -/
theorem stepSum_eq (x0 : Vec Ideal S512x1024 .f32) (x1 : Vec Ideal S1024x4096 .bf16) (x2 : Vec Ideal S1x4096 .f32)
    (x3 : Vec Ideal S4096x1024 .bf16) (o : Nat) (c : Fin 4) (ho : o = 1024 * c.val)
    (i1 : ∀ a, (![0, o] : Fin 2 → Nat) a + S1024x1024.size a ≤ S1024x4096.size a)
    (i2 : ∀ a, (![0, o] : Fin 2 → Nat) a + S1x1024.size a ≤ S1x4096.size a)
    (i3 : ∀ a, (![o, 0] : Fin 2 → Nat) a + S1024x1024.size a ≤ S4096x1024.size a) (p : Fin 512) (q : Fin 1024) :
    (∑ k : Fin 1024, act (pre x0 (colsW1 x1 o i1) (colsB1 x2 o i2) p k) * rowsW2 x3 o i3 (ix2 k q)) = runSum x0 x1 x2 x3 c p q := by
  unfold runSum pre
  refine Finset.sum_congr rfl fun k _ => ?_
  rw [rowsW2_apply x3 o c ho i3 k q, colsB1_apply x2 o c ho i2 0 k]
  refine congrArg (fun s => act (s + x2 (ix2 (0 : Fin 1) (chunkIdx c k))) * x3 (ix2 (chunkIdx c k) q)) ?_
  exact Finset.sum_congr rfl fun d _ => by rw [colsW1_apply x1 o c ho i1 d k]

/-- Entry (p, q) of a tile's result: the four runs' contributions added in order from zero, plus b2's row at q. -/
theorem tile_apply (x0 : Vec Ideal S512x1024 .f32) (x1 : Vec Ideal S1024x4096 .bf16) (x2 : Vec Ideal S1x4096 .f32)
    (x3 : Vec Ideal S4096x1024 .bf16) (x4 : Vec Ideal S1x1024 .f32) (p : Fin 512) (q : Fin 1024) :
    tile (F := Ideal) x0 x1 x2 x3 x4 (ix2 p q)
      = ((((0 + runSum x0 x1 x2 x3 0 p q) + runSum x0 x1 x2 x3 1 p q) + runSum x0 x1 x2 x3 2 p q) + runSum x0 x1 x2 x3 3 p q)
        + x4 (ix2 (0 : Fin 1) q) := by
  unfold tile acc3 acc2 acc1 acc0
  rw [addBias_apply, biasCast_apply, step3_apply, accumulate_apply, step1_apply, step0_apply, zeroFill_apply]
  simp only [hidden_apply, rowsRounded, runCast]
  rw [stepSum_eq x0 x1 x2 x3 0 0 rfl, stepSum_eq x0 x1 x2 x3 1024 1 rfl, stepSum_eq x0 x1 x2 x3 2048 2 rfl,
    stepSum_eq x0 x1 x2 x3 3072 3 rfl]

end Cert.KernelIdeal.MlpBody

end
-- ==== Proof.TileArray.lean ====
/-
  From row tiles to the result array. Tile t writes back rows [512t, 512t + 512) of the specification of the five
  arguments: its entry (p, q) is the four runs' contributions in order from zero plus b2 at q, the runs read the
  arguments at rows 512t + p, and the chunked-sum law makes that the specification at (512t + p, q). The 16 tiles'
  row ranges cover all 8192 rows (row r is in tile r / 512), so after the run the result array is the specification.
-/
import proofs.«176387_j83184926589623_2_alg».proof.Proof.Arrays
import proofs.«176387_j83184926589623_2_alg».proof.Proof.TileValue
import proofs.«176387_j83184926589623_2_alg».proof.Proof.Gen.KernelIdeal.Value

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.MlpValue

open Cert.KernelIdeal Cert.KernelIdeal.Gen Cert.KernelIdeal.MlpBody Cert.KernelIdeal.MlpArrays Cert.MlpSpec

variable (m : (ℓ : Loc nD τ sig) → Buf (Elt Ideal) ℓ) (ρ : Dev nD → PrngReg)

/-- The specification of the five arguments as core c finds them at launch. -/
abbrev spec (c : Dev nD) : S8192x1024.Idx → EReal :=
  out (m ((c : Thread nD τ).loc main_arg0)) (m ((c : Thread nD τ).loc main_arg1)) (m ((c : Thread nD τ).loc main_arg2))
    (m ((c : Thread nD τ).loc main_arg3)) (m ((c : Thread nD τ).loc main_arg4))

/-- Run κ's contribution over tile t's blocks is the specification's sum over run κ at row 512t + p. -/
theorem runSum_blocks (c : Dev nD) (t : Fin cfg0.N) (κ : Fin 4) (p : Fin 512) (q : Fin 1024) (r : Fin 8192)
    (hr : r.val = 512 * t.val + p.val) :
    runSum (iblk m c 0 t) (iblk m c 1 t) (iblk m c 2 t) (iblk m c 3 t) κ p q
      = ∑ k : Fin 1024, act (Cert.MlpSpec.hidden (m ((c : Thread nD τ).loc main_arg0)) (m ((c : Thread nD τ).loc main_arg1))
            (m ((c : Thread nD τ).loc main_arg2)) r (chunkIdx κ k)) * m ((c : Thread nD τ).loc main_arg3) (ix2 (chunkIdx κ k) q) := by
  unfold runSum Cert.MlpSpec.hidden
  refine Finset.sum_congr rfl fun k _ => ?_
  rw [blk_W2 m c t (chunkIdx κ k) q, blk_b1 m c t 0 (chunkIdx κ k)]
  refine congrArg (fun s => act (s + m ((c : Thread nD τ).loc main_arg2) (ix1 (chunkIdx κ k)))
    * m ((c : Thread nD τ).loc main_arg3) (ix2 (chunkIdx κ k) q)) ?_
  exact Finset.sum_congr rfl fun d _ => by rw [blk_x m c t p d r hr, blk_W1 m c t d (chunkIdx κ k)]

/-- Tile t's result at a block index is the specification at the matching array index. -/
theorem tile_spec (c : Dev nD) (t : Fin cfg0.N) (j : S512x1024.Idx) :
    tile (F := Ideal) (iblk m c 0 t) (iblk m c 1 t) (iblk m c 2 t) (iblk m c 3 t) (iblk m c 4 t) j
      = spec m c (((cfg0.win 5).blk t).view.emb j) := by
  obtain ⟨p, q, rfl⟩ : ∃ (p : Fin 512) (q : Fin 1024), j = ix2 p q := ⟨j 0, j 1, eq_ix2 j⟩
  have hN : cfg0.N = 16 := N_0
  have ht := t.isLt
  have hp := p.isLt
  obtain ⟨r, hr⟩ : ∃ r : Fin 8192, r.val = 512 * t.val + p.val := ⟨⟨512 * t.val + p.val, by omega⟩, rfl⟩
  rw [out_emb t p q r hr]
  refine (tile_apply (iblk m c 0 t) (iblk m c 1 t) (iblk m c 2 t) (iblk m c 3 t) (iblk m c 4 t) p q).trans ?_
  rw [runSum_blocks m c t 0 p q r hr, runSum_blocks m c t 1 p q r hr, runSum_blocks m c t 2 p q r hr,
    runSum_blocks m c t 3 p q r hr, blk_b2 m c t 0 q]
  exact out_chunked _ _ _ _ _ r q

/-- What tile t writes back is block t of the specification. -/
theorem flushed_eq (c : Dev nD) (t : Fin cfg0.N) :
    (dats m 0 c).flushed 5 t = ((cfg0.win 5).blk t).view.read (Elt Ideal) (spec m c) := by
  rw [Value.flushed5_A, out_eq_tile]
  funext j
  show tile (F := Ideal) (iblk m c 0 t) (iblk m c 1 t) (iblk m c 2 t) (iblk m c 3 t) (iblk m c 4 t) j
    = spec m c (((cfg0.win 5).blk t).view.emb j)
  exact tile_spec m c t j

/-- An index of the result is in tile t's block iff each coordinate is in the block's range on its axis. -/
theorem mem_blk (t : Fin cfg0.N) (i : S8192x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v4).slice (win0_5.rect t)).set ↔ _
  rw [View.set_slice_whole, Rect.mem_set_unit]
  exact Iff.rfl

/-- Row r of the result is in tile r / 512's block. -/
theorem cover (i : S8192x1024.Idx) : ∃ t : Fin cfg0.N, (cfg0.win 5).flush t = true ∧ i ∈ ((cfg0.win 5).blk t).view.set := by
  have h0 : (i 0).val < 8192 := (i 0).isLt
  have h1 : (i 1).val < 1024 := (i 1).isLt
  have hN : cfg0.N = 16 := N_0
  obtain ⟨t, ht⟩ : ∃ t : Fin cfg0.N, t.val = (i 0).val / 512 := ⟨⟨(i 0).val / 512, by rw [hN]; omega⟩, rfl⟩
  refine ⟨t, flush0_5 t, ?_⟩
  rw [mem_blk]
  obtain ⟨-, -, e0, e1, -⟩ := blockIndex t
  intro a
  match a with
  | ⟨0, _⟩ =>
    show win0_5.index t (0 : Fin 2) * 512 ≤ (i 0).val ∧ (i 0).val < win0_5.index t (0 : Fin 2) * 512 + 512
    rw [e0, ht]; omega
  | ⟨1, _⟩ =>
    show win0_5.index t (1 : Fin 2) * 1024 ≤ (i 1).val ∧ (i 1).val < win0_5.index t (1 : Fin 2) * 1024 + 1024
    rw [e1]; omega

/-- After the run the result array is the specification. -/
theorem final (c : Dev nD) : (dats m 0 c).arrAt 5 cfg0.N = spec m c :=
  (dats m 0 c).arrAt_eq_of_cover 5 (spec m c) (fun t _ => flushed_eq m c t) cover

/-- The kernel's run, read: every execution ends with the result array at the specification of the launch
    arguments, and the arguments unchanged. -/
theorem run : θ_run defs (onTc (τ := τ) (main (F := Ideal))) ⟨m, fun _ => 0, ρ⟩ fun r => ∀ c : Dev nD,
      r.2.mem ((c : Thread nD τ).loc main_v4) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.MlpValue

end
-- ==== Proof.lean ====
/-
  A two-layer feed-forward block with a cubic activation, computed in row tiles, against its plain form.

  With x : [8192, 1024], W1 : [1024, 4096], b1 : [4096], W2 : [4096, 1024], b2 : [1024] and
  act h = h · (1/2 + h · (1/2 − 1/8 · h)), both programs compute, over the extended reals,
      out r j = (∑ f, act ((∑ d, x r d · W1 d f) + b1 f) · W2 f j) + b2 j.
  The reference does so in one pass. The kernel takes the 8192 rows in 16 tiles of 512; inside a tile it takes the 4096
  hidden columns in four runs of 1024, adding each run's product with the matching rows of W2 to an accumulator that
  starts at zero, and adds b2 at the end. A change of float format is the identity on extended reals, so the two differ
  only in how the sum over the hidden axis is grouped: (((0 + S₀) + S₁) + S₂) + S₃ against one sum over all 4096
  columns. Addition of extended reals is commutative and associative, which is all the regrouping needs; no entry has
  to be finite for it. The precondition is therefore never opened.

  The parts: ChunkSum (the regrouping law), Spec (the function `out`), RefIsSpec (the reference's run is `out`),
  BodyTerm, TileMatmul, TileSteps, TileValue (a tile's result, entry by entry), Arrays (what a tile is handed),
  TileArray (the tiles' write-backs cover the result with `out`).
-/
import proofs.«176387_j83184926589623_2_alg».proof.Defs
import proofs.«176387_j83184926589623_2_alg».proof.Proof.Gen.Kernel
import proofs.«176387_j83184926589623_2_alg».proof.Proof.Gen.Kernel.Skeleton
import proofs.«176387_j83184926589623_2_alg».proof.Proof.Gen.Kernel.Launch
import proofs.«176387_j83184926589623_2_alg».proof.Proof.Gen.Kernel.Points
import proofs.«176387_j83184926589623_2_alg».proof.Proof.Gen.Kernel.Frame
import proofs.«176387_j83184926589623_2_alg».proof.Proof.Gen.KernelIdeal
import proofs.«176387_j83184926589623_2_alg».proof.Proof.Gen.KernelIdeal.Skeleton
import proofs.«176387_j83184926589623_2_alg».proof.Proof.Gen.KernelIdeal.Launch
import proofs.«176387_j83184926589623_2_alg».proof.Proof.Gen.KernelIdeal.Points
import proofs.«176387_j83184926589623_2_alg».proof.Proof.Gen.KernelIdeal.Frame
import proofs.«176387_j83184926589623_2_alg».proof.Proof.Gen.ReferenceIdeal
import proofs.«176387_j83184926589623_2_alg».proof.Proof.Gen.Pre_finite_inputs
import proofs.«176387_j83184926589623_2_alg».proof.Proof.Gen.KernelIdeal.Value
import proofs.«176387_j83184926589623_2_alg».proof.Proof.Gen.ReferenceIdeal.Run
import proofs.«176387_j83184926589623_2_alg».proof.Proof.Gen.ReferenceIdeal.Read
import proofs.«176387_j83184926589623_2_alg».proof.Proof.RefIsSpec
import proofs.«176387_j83184926589623_2_alg».proof.Proof.TileArray
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of array operations: it runs to the end and writes none of its arguments. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- From memories that agree on the five arguments, the kernel's result array ends at `out` of them (its tiles cover
    the array, each tile the regrouped sum), and the reference's result is `out` of them as written. -/
theorem algebraic : Cert.algebraic_KernelIdeal_ReferenceIdeal := by
  intro m ρ m' ρ' _ hagree
  refine ⟨fun c => Cert.KernelIdeal.MlpValue.spec m c, Cert.KernelIdeal.MlpValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v15_eq _ _ _ _ _).trans (Cert.ReferenceIdeal.RefValue.result_eq_out _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
